-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S256x256 : Shape := ⟨2, ![256, 256]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4x4096x4096 .f32) (main_arg1 : FVec F S256x256 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S4x4096x4096 : Shape := ⟨3, ![4, 4096, 4096]⟩
abbrev S256x256 : Shape := ⟨2, ![256, 256]⟩
abbrev S16384x4096 : Shape := ⟨2, ![16384, 4096]⟩
abbrev S512x4096 : Shape := ⟨2, ![512, 4096]⟩
abbrev S512x256 : Shape := ⟨2, ![512, 256]⟩

abbrev nBuf : Space → Nat
  | .hbm => 7
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S256x256, .f32⟩
  | .hbm, ⟨2, _⟩ => ⟨S16384x4096, .f32⟩
  | .hbm, ⟨3, _⟩ => ⟨S256x256, .f32⟩
  | .hbm, ⟨4, _⟩ => ⟨S256x256, .bf16⟩
  | .hbm, ⟨5, _⟩ => ⟨S16384x4096, .f32⟩
  | .hbm, ⟨6, _⟩ => ⟨S4x4096x4096, .f32⟩
  | .local _ .vmem, ⟨0, _⟩ => ⟨S512x4096, .f32⟩
  | .local _ .vmem, ⟨1, _⟩ => ⟨S512x4096, .f32⟩
  | .local _ .vmem, ⟨2, _⟩ => ⟨S256x256, .bf16⟩
  | .local _ .vmem, ⟨3, _⟩ => ⟨S512x4096, .f32⟩
  | .local _ .vmem, ⟨4, _⟩ => ⟨S512x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v2 : BitVec 32 := Scalar.addi c0_i32 c16_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c256_i32 : BitVec 32 := 256#32
  let v3 : BitVec 32 := Scalar.muli arg4 c256_i32
  v3
def k0_off1 (k0_t1 : Fin k0_t1_loop.trips) : Fin 2 → Nat :=
  let c0_2 : Index := 0#32
  let c0_i32 : BitVec 32 := 0#32
  let c1_i32 : BitVec 32 := 1#32
  let arg4 : BitVec 32 := Scf.iv c0_i32 c1_i32 k0_t1
  let c256_i32 : BitVec 32 := 256#32
  let v3 : BitVec 32 := Scalar.muli arg4 c256_i32
  let v4 : BitVec 32 := v3
  let v5 : Index := Scalar.indexCast v4
  ![0, v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x4096 : S4x4096x4096.ShapeCasts S16384x4096
  transposes_S256x256_S256x256_1_0 : S256x256.Transposes [1, 0] S256x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S512x256 : 0 < S512x256.numel
  shapeCasts_S512x256_S512x256 : S512x256.ShapeCasts S512x256
  shapeCasts_S16384x4096_S4x4096x4096 : S16384x4096.ShapeCasts S4x4096x4096
  dot_S512x256_S256x256_S512x256_1_0_0_1_n_n_wf : DotDims.WF S512x256 S256x256 S512x256 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S512x256.size a ≤ S512x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S256x256 : Shape := ⟨2, ![256, 256]⟩
abbrev S262144x256 : Shape := ⟨2, ![262144, 256]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S256x256, .f32⟩
  | .hbm, ⟨2, _⟩ => ⟨S262144x256, .f32⟩
  | .hbm, ⟨3, _⟩ => ⟨S256x256, .f32⟩
  | .hbm, ⟨4, _⟩ => ⟨S262144x256, .f32⟩
  | .hbm, ⟨5, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S4x4096x4096_S262144x256 : S4x4096x4096.ShapeCasts S262144x256
  transposes_S256x256_S256x256_1_0 : S256x256.Transposes [1, 0] S256x256
  shapeCasts_S262144x256_S4x4096x4096 : S262144x256.ShapeCasts S4x4096x4096
  dot_S262144x256_S256x256_S262144x256_1_0_0_1_n_n_wf : DotDims.WF S262144x256 S256x256 S262144x256 [1] [0] [0] [1] [] []

variable [Facts₀]

def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf

class Facts : Prop extends Facts₀ where

variable [Facts]
-- ==== Proof.Strips.lean ====
/-
  The pieces one grid point's body leaves in its output block.

  The body keeps the 256 x 256 matrix block in registers and runs a counted loop of sixteen trips; trip `k` loads the
  512 x 256 column strip of the input block that starts at column `256 k`, multiplies it by the matrix block, and
  stores the product over the same strip of the output block. The frame run records the stores as a list of
  pieces (rectangle, payload). Here that list is read back: every piece of it is the strip of some trip `k`
  together with the product computed from the input block's strip `k` and the matrix block.
-/
import proofs.«159481_j83476984365425_2_alg».proof.Proof.Gen.KernelIdeal.Frame
import Idealize.ShloMosaic.Lib.Pipeline.Value

set_option maxRecDepth 16384

noncomputable section

namespace Cert.KernelIdeal.Strips

open Cert.KernelIdeal Cert.KernelIdeal.Gen
open Idealize.ShloMosaic Idealize.ShloMosaic.TcCoe Idealize.SL.Sem

variable {F : FTy → Type} [FloatOps F]

/-- Trip `k`'s column strip of the 512 x 4096 block: all 512 rows, the 256 columns from `256 k` on. -/
abbrev strip (k : Fin k0_t1_loop.trips) : Rect S512x4096 :=
  Rect.unit (k0_off1 k) S512x256.size (k0_off1_inb k)

/-- What trip `k` stores: over its strip, the product of the input block's strip `k` with the matrix block. -/
def stripPiece (h : Vec F S256x256 .bf16) (x : Vec F S512x4096 .f32) (k : Fin k0_t1_loop.trips) :
    View.Piece (Elt F) S512x4096 .f32 :=
  ⟨strip k, k0_pay1 h (View.ld x (strip k))⟩

section
variable (𝒱 : Variants) (c : Dev nD) (bd : Option 𝒱.V) (i : grid0.Coords)
  (arg1 : Memref sig .tc .vmem S512x4096 .f32) (harg1 : arg1.IsWhole)
  (arg2 : Memref sig .tc .vmem S256x256 .bf16) (harg2 : arg2.IsWhole)
  (arg3 : Memref sig .tc .vmem S512x4096 .f32) (harg3 : arg3.IsWhole)

/-- One trip writes one piece: its strip, with the product of what it loaded. -/
theorem trip_pieces (v0 : Vec F S256x256 .bf16) (X : BufTy.Contents (Elt F) arg1.view.ty) (k : Fin k0_t1_loop.trips) :
    tripL_k0_t1 (F := F) 𝒱 c bd i arg1 harg1 arg2 harg2 arg3 harg3 v0 X k
      = [stripPiece v0 (arg1.view.read (Elt F) X) k] := by
  unfold tripL_k0_t1 trip_k0_t1
  rfl

/-- Every piece written by the trips before the `n`-th is the piece of some trip. -/
theorem mem_before (v0 : Vec F S256x256 .bf16) (X : BufTy.Contents (Elt F) arg1.view.ty) :
    ∀ (n : ℕ) (p : View.Piece (Elt F) S512x4096 .f32),
      p ∈ pb_k0_t1 (F := F) 𝒱 c bd i arg1 harg1 arg2 harg2 arg3 harg3 v0 X n →
      ∃ k, p = stripPiece v0 (arg1.view.read (Elt F) X) k := by
  intro n
  induction n with
  | zero => intro p hp; rw [pb_k0_t1.eq_1] at hp; exact absurd hp List.not_mem_nil
  | succ n ih =>
    intro p hp
    rw [pb_k0_t1.eq_2] at hp
    unfold pb_k0_t1Step at hp
    by_cases hn : n < k0_t1_loop.trips
    · rw [dif_pos hn, trip_pieces] at hp
      rcases List.mem_append.mp hp with h | h
      · exact ⟨⟨n, hn⟩, List.mem_singleton.mp h⟩
      · exact ih p h
    · rw [dif_neg hn] at hp
      exact ih p hp
end

/-- The whole-block load of the matrix block reads the matrix block. -/
theorem ld_matrix (x1 : Vec F S256x256 .bf16) :
    View.ld x1 (Rect.unit (s := S256x256) ![0, 0] S256x256.size inb_S256x256_S256x256_0_0) = x1 :=
  View.ld_unit_zero (S := S256x256) (funext fun a => by fin_cases a <;> rfl) _ x1

/-- THE BODY'S PIECES: whatever staging buffers the body is run on, every piece its run leaves in the output block
    is some trip's strip carrying the product of the input block's strip with the matrix block. -/
theorem run_pieces (c : Dev nD) (i : grid0.Coords)
    (arg1 : Memref sig .tc .vmem S512x4096 .f32) (harg1 : arg1.IsWhole)
    (arg2 : Memref sig .tc .vmem S256x256 .bf16) (harg2 : arg2.IsWhole)
    (arg3 : Memref sig .tc .vmem S512x4096 .f32) (harg3 : arg3.IsWhole)
    (x0 : Vec F S512x4096 .f32) (x1 : Vec F S256x256 .bf16)
    (p : View.Piece (Elt F) S512x4096 .f32)
    (hp : p ∈ (kernelRun0_A c i arg1 harg1 arg2 harg2 arg3 harg3 x0 x1).1) :
    ∃ k, p = stripPiece x1 x0 k := by
  unfold kernelRun0_A at hp
  dsimp only at hp
  obtain ⟨k, rfl⟩ := mem_before Variants.none c none i arg1 harg1 arg2 harg2 arg3 harg3 _ _ _ p hp
  refine ⟨k, ?_⟩
  rw [View.readAt_eq_ld, harg2.read_unread, harg1.read_unread]
  exact congrArg (fun h => stripPiece h x0 k) (ld_matrix x1)

end Cert.KernelIdeal.Strips

end
-- ==== Proof.StripProduct.lean ====
/-
  One trip's product, entry by entry, over the extended reals.

  A trip multiplies a 512 x 256 strip `v` of the input block by the 256 x 256 matrix block `h` into a zero
  accumulator. Read exactly, the narrowing of the strip to the matrix unit's input format changes nothing and the
  zero accumulator adds nothing, so entry `(r, j)` of the product is the plain sum over `q` of `v (r, q) * h (q, j)`.
-/
import proofs.«159481_j83476984365425_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.StripProduct

open Cert.KernelIdeal Cert.KernelIdeal.Gen
open Idealize.ShloMosaic Idealize.ShloMosaic.ValueIdx

/-- The left operand of the product at output entry `i` and contraction index `q` sits in row `i 0`. -/
theorem lhs_row (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl

/-- The right operand sits in column `i 1`. -/
theorem rhs_col (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- ENTRY `(r, j)` OF A TRIP'S PRODUCT is `∑ q, v (r, q) * h (q, j)`. -/
theorem pay_apply (h : Vec Ideal S256x256 .bf16) (v : Vec Ideal S512x256 .f32) (r : Fin 512) (j : Fin 256) :
    k0_pay1 (F := Ideal) h v (ix2 r j) = ∑ q : Fin 256, v (ix2 r q) * h (ix2 q j) := by
  unfold k0_pay1
  simp only [matmul]
  rw [Ideal.matmul_constant_zero_apply,
    ← Equiv.sum_comp (contrEquiv1 dot_S512x256_S256x256_S512x256_1_0_0_1_n_n 256 rfl rfl).symm]
  refine Finset.sum_congr rfl fun q _ => ?_
  have hq := contrEquiv1_symm_val dot_S512x256_S256x256_S512x256_1_0_0_1_n_n 256 rfl rfl q
  have el : dot_S512x256_S256x256_S512x256_1_0_0_1_n_n.lhsIdx (ix2 r j)
      ((contrEquiv1 dot_S512x256_S256x256_S512x256_1_0_0_1_n_n 256 rfl rfl).symm q) = ix2 r q :=
    funext fun a => Fin.ext (by
      match a with
      | ⟨0, _⟩ => exact lhs_row _ _
      | ⟨1, _⟩ => exact (dot_S512x256_S256x256_S512x256_1_0_0_1_n_n.lhsIdx_val_of_single rfl _ _).trans hq)
  have er : dot_S512x256_S256x256_S512x256_1_0_0_1_n_n.rhsIdx (ix2 r j)
      ((contrEquiv1 dot_S512x256_S256x256_S512x256_1_0_0_1_n_n 256 rfl rfl).symm q) = ix2 q j :=
    funext fun a => Fin.ext (by
      match a with
      | ⟨0, _⟩ => exact (dot_S512x256_S256x256_S512x256_1_0_0_1_n_n.rhsIdx_val_of_single rfl _ _).trans hq
      | ⟨1, _⟩ => exact rhs_col _ _)
  rw [el, er, shapeCast_self, shapeCast_self]
  rfl

end Cert.KernelIdeal.StripProduct

end
-- ==== Proof.Spec.lean ====
/-
  The block-wise transform, as plain functions of arrays of extended reals.

  The last axis (4096 entries) is split into sixteen chunks of 256; each chunk of a row is multiplied by the
  transpose of the 256 x 256 matrix `H`: entry `d` of a row of the result is the sum over `q` of the row's entry
  `256 * (d / 256) + q` times `H (d % 256, q)`. The same function is stated at the three layouts it is met in: a
  512-row block and the whole 16384-row array against the already transposed matrix `W (q, j) = H (j, q)`, and the
  original 4 x 4096 x 4096 array against `H` itself.
-/
import Idealize.ShloMosaic.PureOps.Ideal
import Idealize.ShloMosaic.Lib.ValueIdx

noncomputable section

namespace Cert.Spec

open Idealize.ShloMosaic Idealize.ShloMosaic.ValueIdx

/-- The column of the chunk of `d` that contraction index `q` reads: `256 * (d / 256) + q`. -/
abbrev chunkCol (d : Fin 4096) (q : Fin 256) : Fin 4096 := ⟨256 * (d.val / 256) + q.val, by omega⟩

/-- The position of `d` inside its chunk: `d % 256`. -/
abbrev inChunk (d : Fin 4096) : Fin 256 := ⟨d.val % 256, by omega⟩

/-- A 512-row block `X` against the transposed matrix `W`. -/
def blockProd (X : (⟨2, ![512, 4096]⟩ : Shape).Idx → EReal) (W : (⟨2, ![256, 256]⟩ : Shape).Idx → EReal)
    (r : Fin 512) (d : Fin 4096) : EReal :=
  ∑ q : Fin 256, X (ix2 r (chunkCol d q)) * W (ix2 q (inChunk d))

/-- The whole 16384-row array `X` against the transposed matrix `W`. -/
def arrayProd (X : (⟨2, ![16384, 4096]⟩ : Shape).Idx → EReal) (W : (⟨2, ![256, 256]⟩ : Shape).Idx → EReal)
    (R : Fin 16384) (d : Fin 4096) : EReal :=
  ∑ q : Fin 256, X (ix2 R (chunkCol d q)) * W (ix2 q (inChunk d))

/-- The transform of the original array `x` by the matrix `H`: every 256-chunk of the last axis times `Hᵀ`. -/
def transform (x : (⟨3, ![4, 4096, 4096]⟩ : Shape).Idx → EReal) (H : (⟨2, ![256, 256]⟩ : Shape).Idx → EReal)
    (b : Fin 4) (s : Fin 4096) (d : Fin 4096) : EReal :=
  ∑ q : Fin 256, x (ix3 b s (chunkCol d q)) * H (ix2 (inChunk d) q)

/-- The transform as an array. -/
def transformed (x : (⟨3, ![4, 4096, 4096]⟩ : Shape).Idx → EReal) (H : (⟨2, ![256, 256]⟩ : Shape).Idx → EReal) :
    (⟨3, ![4, 4096, 4096]⟩ : Shape).Idx → EReal :=
  fun i => transform x H (i 0) (i 1) (i 2)

end Cert.Spec

end
-- ==== Proof.BlockValue.lean ====
/-
  What one grid point's body leaves in its output block, as a function of its two input blocks.

  The sixteen strips the loop stores tile the 512 x 4096 output block, and on its strip each store's product is
  the restriction of ONE function of the block index: entry `(r, d)` is the sum over `q` of the input block's
  entry `(r, 256 * (d / 256) + q)` times the matrix block's entry `(q, d % 256)`. Since every piece restricts that
  function and the pieces cover the block, the block the body leaves IS that function.
-/
import proofs.«159481_j83476984365425_2_alg».proof.Proof.Strips
import proofs.«159481_j83476984365425_2_alg».proof.Proof.StripProduct
import proofs.«159481_j83476984365425_2_alg».proof.Proof.Spec

set_option maxRecDepth 16384

noncomputable section

namespace Cert.KernelIdeal.BlockValue

open Cert.KernelIdeal Cert.KernelIdeal.Gen Cert.KernelIdeal.Strips
open Idealize.ShloMosaic Idealize.ShloMosaic.TcCoe Idealize.ShloMosaic.ValueIdx

/-- The block the body leaves, as an array over the block's indices. -/
def blockG (x0 : Vec Ideal S512x4096 .f32) (x1 : Vec Ideal S256x256 .bf16) : S512x4096.Idx → EReal :=
  fun y => Cert.Spec.blockProd x0 x1 ⟨(y 0).val, idx2_lt0 y⟩ ⟨(y 1).val, idx2_lt1 y⟩

/-- Trip `k`'s strip starts at row 0 and column `256 k`. -/
theorem strip_row (k : Fin k0_t1_loop.trips) : k0_off1 k 0 = 0 := by rw [k0_off1_eq]; rfl
theorem strip_col (k : Fin k0_t1_loop.trips) : k0_off1 k 1 = 256 * k.val := by rw [k0_off1_eq]; rfl

/-- On its strip, trip `k`'s product is the block function: column `256 k + j` lies in chunk `k` at position `j`. -/
theorem strip_restricts (x0 : Vec Ideal S512x4096 .f32) (x1 : Vec Ideal S256x256 .bf16) (k : Fin k0_t1_loop.trips)
    (r : Fin 512) (j : Fin 256) :
    k0_pay1 (F := Ideal) x1 (View.ld x0 (strip k)) (ix2 r j) = blockG x0 x1 ((strip k).emb (ix2 r j)) := by
  rw [StripProduct.pay_apply]
  unfold blockG Cert.Spec.blockProd
  have h0 := strip_row k
  have h1 := strip_col k
  refine Finset.sum_congr rfl fun q _ => ?_
  refine congrArg₂ (· * ·) (congrArg x0 ?_) (congrArg x1 (congrArg (ix2 q) (Fin.ext ?_)))
  · funext a; apply Fin.ext
    match a with
    | ⟨0, _⟩ => rfl
    | ⟨1, _⟩ =>
      show k0_off1 k 1 + 1 * q.val = 256 * ((k0_off1 k 1 + 1 * j.val) / 256) + q.val
      have hj := j.isLt
      omega
  · show j.val = (k0_off1 k 1 + 1 * j.val) % 256
    have hj := j.isLt
    omega

/-- THE OUTPUT BLOCK after the body, whatever staging buffers it ran on: the block function of the two input blocks. -/
theorem out_eq (c : Dev nD) (i : grid0.Coords)
    (arg1 : Memref sig .tc .vmem S512x4096 .f32) (harg1 : arg1.IsWhole)
    (arg2 : Memref sig .tc .vmem S256x256 .bf16) (harg2 : arg2.IsWhole)
    (arg3 : Memref sig .tc .vmem S512x4096 .f32) (harg3 : arg3.IsWhole)
    (x0 : Vec Ideal S512x4096 .f32) (x1 : Vec Ideal S256x256 .bf16) :
    out0_A_2 (F := Ideal) c i arg1 harg1 arg2 harg2 arg3 harg3 x0 x1 = blockG x0 x1 := by
  unfold out0_A_2
  rw [View.read_writes_eq_canon _ _ _ (cover0_A_2 c i arg1 harg1 arg2 harg2 arg3 harg3 x0 x1)]
  funext y
  refine View.canon_apply_of_pieces (blockG x0 x1) _ ?_ y (cover0_A_2 c i arg1 harg1 arg2 harg2 arg3 harg3 x0 x1 y)
  intro p hp x
  obtain ⟨k, rfl⟩ := run_pieces c i arg1 harg1 arg2 harg2 arg3 harg3 x0 x1 p hp
  obtain ⟨r, j, rfl⟩ : ∃ (r : Fin 512) (j : Fin 256), x = ix2 r j := ⟨x 0, x 1, eq_ix2 x⟩
  exact strip_restricts x0 x1 k r j

end Cert.KernelIdeal.BlockValue

end
-- ==== Proof.ArrayValue.lean ====
/-
  From the blocks to the whole 16384 x 4096 array the kernel writes.

  Grid point `t` reads rows `512 t … 512 t + 511` of the row-flattened input and the whole transposed matrix, and
  writes back the same rows of the output. The block function of these two blocks is the restriction to those rows
  of ONE function of the two arrays as the region finds them — entry `(R, d)` is the sum over `q` of the input's
  entry `(R, 256 * (d / 256) + q)` times the transposed matrix's entry `(q, d % 256)` — because the block function
  never mixes rows. The thirty-two row blocks cover the array (row `R` is in the block of point `R / 512`), so after
  the run the output array is that function.
-/
import proofs.«159481_j83476984365425_2_alg».proof.Proof.BlockValue

set_option maxRecDepth 16384

noncomputable section

namespace Cert.KernelIdeal.ArrayValue

open Cert.KernelIdeal Cert.KernelIdeal.Gen Cert.KernelIdeal.BlockValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output array, as an array over its indices, from the two arrays the region reads. -/
def arrayG (X : S16384x4096.Idx → EReal) (W : S256x256.Idx → EReal) : S16384x4096.Idx → EReal :=
  fun i => Cert.Spec.arrayProd X W ⟨(i 0).val, idx2_lt0 i⟩ ⟨(i 1).val, idx2_lt1 i⟩

/-- Where the three windows' blocks sit at grid point `t`: the input's and the output's row block is `t`, there is
    one column block, and the matrix is one block. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 31 :=
  (by decide +kernel : ∀ t : Fin grid0.N, _)

/-- Every row block is some point's. -/
theorem idx_onto : ∀ q0 : Fin 32, ∃ t : Fin cfg0.N, win0_2.index t = ![q0.val, 0] :=
  (by decide +kernel : ∀ q0 : Fin 32, ∃ t : Fin grid0.N, win0_2.index t = ![q0.val, 0])

/-- The input block at point `t` is the input array read at the block's rows. -/
theorem iblk0_apply (c : Dev nD) (t : Fin cfg0.N) (z : S512x4096.Idx) :
    iblk m c 0 t z = V m c main_v0 (((cfg0.win 0).blk t).view.emb z) := rfl

/-- The matrix block at every point is the whole transposed matrix. -/
theorem iblk1_apply (c : Dev nD) (t : Fin cfg0.N) (z : S256x256.Idx) :
    iblk m c 1 t z = V m c main_v2 (((cfg0.win 1).blk t).view.emb z) := rfl

/-- WHAT POINT `t` WRITES BACK is block `t` of the array function of the two arrays the region reads. -/
theorem flushed_eq (c : Dev nD) (t : Fin cfg0.N) :
    (dats m 0 c).flushed 2 t
      = ((cfg0.win 2).blk t).view.read (Elt Ideal) (arrayG (V m c main_v0) (V m c main_v2)) := by
  show (cfg0.win 2).cut (grid0.coords t) ((dats m 0 c).after 2 t) = _
  rw [after0_2]
  unfold outsAt0
  rw [BlockValue.out_eq c (grid0.coords t) (ms0_0 t) (hs0_0 t) (ms0_1 t) (hs0_1 t) (ms0_2 t) (hs0_2 t)
    (iblk m c 0 t) (iblk m c 1 t)]
  obtain ⟨e0, e1, e2, e3, e4, e5⟩ := idx_facts t
  funext y
  show blockG (iblk m c 0 t) (iblk m c 1 t) y
    = arrayG (V m c main_v0) (V m c main_v2) (((cfg0.win 2).blk t).view.emb y)
  unfold blockG arrayG Cert.Spec.blockProd Cert.Spec.arrayProd
  refine Finset.sum_congr rfl fun q _ => ?_
  rw [iblk0_apply, iblk1_apply]
  have hy0 : (y 0).val < 512 := (y 0).isLt
  have hy1 : (y 1).val < 4096 := (y 1).isLt
  refine congrArg₂ (· * ·) (congrArg (V m c main_v0) ?_) (congrArg (V m c main_v2) ?_)
  · funext a; apply Fin.ext
    match a with
    | ⟨0, _⟩ =>
      show win0_0.index t (0 : Fin 2) * 512 + 1 * (y 0).val = win0_2.index t (0 : Fin 2) * 512 + 1 * (y 0).val
      omega
    | ⟨1, _⟩ =>
      show win0_0.index t (1 : Fin 2) * 4096 + 1 * (256 * ((y 1).val / 256) + q.val)
        = 256 * ((win0_2.index t (1 : Fin 2) * 4096 + 1 * (y 1).val) / 256) + q.val
      omega
  · funext a; apply Fin.ext
    match a with
    | ⟨0, _⟩ =>
      show win0_1.index t (0 : Fin 2) * 256 + 1 * q.val = q.val
      omega
    | ⟨1, _⟩ =>
      show win0_1.index t (1 : Fin 2) * 256 + 1 * ((y 1).val % 256)
        = (win0_2.index t (1 : Fin 2) * 4096 + 1 * (y 1).val) % 256
      omega

/-- An index of the array is in point `t`'s block iff each coordinate is in the block's range on its axis. -/
theorem mem_blk (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v3).slice (win0_2.rect t)).set ↔ _
  rw [View.set_slice_whole, Rect.mem_set_unit]
  exact Iff.rfl

/-- Every index of the array is in the block of the point its row falls in. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 4096 ≤ (i 1).val ∧ (i 1).val < win0_2.index t (1 : Fin 2) * 4096 + 4096
    omega

/-- THE OUTPUT ARRAY after the run is the array function of the two arrays the region reads. -/
theorem final (c : Dev nD) :
    (dats m 0 c).arrAt 2 cfg0.N = arrayG (V m c main_v0) (V m c main_v2) :=
  (dats m 0 c).arrAt_eq_of_cover 2 (arrayG (V m c main_v0) (V m c main_v2)) (fun t _ => flushed_eq m c t) (cover)

end Cert.KernelIdeal.ArrayValue

end
-- ==== Proof.Layout.lean ====
/-
  The host lines around the kernel, read at an index, and the kernel's whole result.

  Before the kernel the input `x` of shape 4 x 4096 x 4096 is flattened to 16384 rows (row `R` is `(R / 4096, R % 4096)`)
  and the matrix `H` is transposed and narrowed to the matrix unit's input format (a no-op on exact values); after it
  the 16384 x 4096 result is given its three axes back (entry `(b, s, d)` is row `4096 b + s`, column `d`). Pushing
  an index through these three re-layouts turns the array function of the flattened operands into the block-wise
  transform of `x` by `H`: the sum over `q` of `x (b, s, 256 (d / 256) + q) * H (d % 256, q)`.
-/
import proofs.«159481_j83476984365425_2_alg».proof.Proof.ArrayValue

noncomputable section

namespace Cert.KernelIdeal.Layout

open Cert.KernelIdeal Cert.KernelIdeal.ArrayValue
open Idealize.ShloMosaic Idealize.ShloMosaic.ValueIdx

/-- The flattened input at `(R, col)` is the input at `(R / 4096, R % 4096, col)`. -/
theorem flat_apply (h : S4x4096x4096.ShapeCasts S16384x4096) (x : S4x4096x4096.Idx → EReal)
    (R : Fin 16384) (col : Fin 4096) :
    shapeCast S16384x4096 x h (ix2 R col)
      = x (ix3 (⟨R.val / 4096, by omega⟩ : Fin 4) (⟨R.val % 4096, by omega⟩ : Fin 4096) col) := by
  refine shapeCast_apply x h (ix2 R col) _ ?_
  rw [Shape.rowMajor_val_three, Shape.rowMajor_val_two]
  show (R.val / 4096 * 4096 + R.val % 4096) * 4096 + col.val = R.val * 4096 + col.val
  omega

/-- The result with its three axes back at `(b, s, d)` is the flat result at row `4096 b + s`, column `d`. -/
theorem unflat_apply (h : S16384x4096.ShapeCasts S4x4096x4096) (y : S16384x4096.Idx → EReal)
    (b : Fin 4) (s : Fin 4096) (d : Fin 4096) :
    shapeCast S4x4096x4096 y h (ix3 b s d) = y (ix2 (⟨b.val * 4096 + s.val, by omega⟩ : Fin 16384) d) := by
  refine shapeCast_apply y h (ix3 b s d) _ ?_
  rw [Shape.rowMajor_val_three, Shape.rowMajor_val_two]
  rfl

/-- The transposed matrix at `(q, j)` is the matrix at `(j, q)`. -/
theorem transposed_apply (h : S256x256.Transposes [1, 0] S256x256) (H : S256x256.Idx → EReal) (q j : Fin 256) :
    transpose S256x256 [1, 0] H h (ix2 q j) = H (ix2 j q) :=
  transpose_apply [1, 0] H h (ix2 q j) (ix2 j q) (fun b => match b with
    | ⟨0, _⟩ => rfl
    | ⟨1, _⟩ => rfl)

/-- THE KERNEL'S RESULT as a function of its two arguments: flatten, multiply chunk by chunk by the transposed
    matrix, restore the axes — the block-wise transform of `x` by `H`. -/
theorem result_eq (h1 : S4x4096x4096.ShapeCasts S16384x4096) (h2 : S256x256.Transposes [1, 0] S256x256)
    (hlt : FTy.bits .bf16 < FTy.bits .f32) (h3 : S16384x4096.ShapeCasts S4x4096x4096)
    (x : S4x4096x4096.Idx → EReal) (H : S256x256.Idx → EReal) :
    shapeCast S4x4096x4096
        (arrayG (shapeCast S16384x4096 x h1) (truncf (F := Ideal) .bf16 (transpose S256x256 [1, 0] H h2) hlt)) h3
      = Cert.Spec.transformed x H := by
  funext i
  obtain ⟨b, s, d, rfl⟩ : ∃ (b : Fin 4) (s : Fin 4096) (d : Fin 4096), i = ix3 b s d := ⟨i 0, i 1, i 2, eq_ix3 i⟩
  rw [unflat_apply]
  unfold arrayG Cert.Spec.transformed Cert.Spec.transform Cert.Spec.arrayProd
  refine Finset.sum_congr rfl fun q _ => ?_
  have hb := b.isLt
  have hs := s.isLt
  refine congrArg₂ (· * ·) ((flat_apply h1 x _ _).trans (congrArg x ?_)) (transposed_apply h2 H q _)
  funext a; apply Fin.ext
  match a with
  | ⟨0, _⟩ => show (b.val * 4096 + s.val) / 4096 = b.val; omega
  | ⟨1, _⟩ => show (b.val * 4096 + s.val) % 4096 = s.val; omega
  | ⟨2, _⟩ => rfl

end Cert.KernelIdeal.Layout

end
-- ==== Proof.KernelRun.lean ====
/-
  The idealized kernel's run, with its result named.

  The frame run gives the kernel's output array as the array function of what the region finds in its two operand
  buffers, and the program's last line restores the three axes of that array. The operand buffers hold the
  flattened input and the transposed, narrowed matrix — the three host lines before the region, applied to the two
  arguments. Put together, every weakly fair execution ends with the result holding the block-wise transform of the
  argument arrays, and the arguments unchanged.
-/
import proofs.«159481_j83476984365425_2_alg».proof.Proof.Layout
import Idealize.ShloMosaic.Lib.StableHlo.Run

set_option maxRecDepth 16384

noncomputable section

namespace Cert.KernelIdeal.KernelRun

open Cert.KernelIdeal Cert.KernelIdeal.Gen Cert.KernelIdeal.ArrayValue
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The first operand buffer holds the flattened input when the region is entered. -/
theorem V_flat (c : Dev nD) :
    (V m c main_v0 : S16384x4096.Idx → EReal)
      = shapeCast S16384x4096 (m ((c : Thread nD τ).loc main_arg0)) shapeCasts_S4x4096x4096_S16384x4096 := by
  show StableHlo.after hostOps0 (fun b => m (c, b)) (Proc.devRef .tc main_v0) = _
  after_results <;> rfl

/-- The second operand buffer holds the transposed matrix, narrowed. -/
theorem V_matrix (c : Dev nD) :
    (V m c main_v2 : S256x256.Idx → EReal)
      = truncf (F := Ideal) .bf16 (transpose S256x256 [1, 0] (m ((c : Thread nD τ).loc main_arg1))
          transposes_S256x256_S256x256_1_0) bitsLt_bf16_f32 := by
  show StableHlo.after hostOps0 (fun b => m (c, b)) (Proc.devRef .tc main_v2) = _
  after_results <;> rfl

/-- The program's result after its last line: the kernel's output array with its three axes back. -/
theorem tail_result (c : Dev nD) :
    Pipeline.afterTail₀ cfgs (dats m) 0 (V0 m) [hostOps1] c main_v4
      = shapeCast S4x4096x4096 ((dats m 0 c).arrAt 2 cfg0.N) shapeCasts_S16384x4096_S4x4096x4096 := by
  unfold Pipeline.afterTail₀
  show StableHlo.after hostOps1 _ (Proc.devRef .tc main_v4) = _
  after_results
  rw [Pipeline.withArrays_arr spec0 launch0.win.arr_inj c _ _ 2]
  rfl

/-- THE KERNEL'S RUN at the exact values: it terminates without a fault, its result is the block-wise transform of
    its arguments, and the arguments end as they began. -/
theorem run : θ_run defs (onTc (τ := τ) (main (F := Ideal))) ⟨m, fun _ => 0, ρ⟩ fun r => ∀ c : Dev nD,
      r.2.mem ((c.tc : Thread nD τ).loc main_v4)
        = Cert.Spec.transformed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v4 (Pipeline.mem_restRefs_of main_v4 (by decide) (by decide))).trans (by
          rw [tail_result, final, V_flat, V_matrix]
          exact Layout.result_eq _ _ _ _ _ _),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KernelRun

end
-- ==== Proof.RefValue.lean ====
/-
  The reference, entry by entry.

  The reference flattens `x` to 262144 rows of 256 entries (one row per chunk), multiplies by the transpose of `H`,
  and restores the shape. Entry `(b, s, d)` of the result sits in flat row `(4096 (4096 b + s) + d) / 256` at column
  `d % 256`; that row holds the chunk of `d`, entries `256 (d / 256) + q` of row `(b, s)`. So the reference's result is
  the block-wise transform of `x` by `H`: the sum over `q` of `x (b, s, 256 (d / 256) + q) * H (d % 256, q)`.
-/
import proofs.«159481_j83476984365425_2_alg».proof.Proof.Gen.ReferenceIdeal.Read
import proofs.«159481_j83476984365425_2_alg».proof.Proof.Spec

noncomputable section

namespace Cert.ReferenceIdeal.RefValue

open Cert.ReferenceIdeal Cert.ReferenceIdeal.Read
open Idealize.ShloMosaic Idealize.ShloMosaic.ValueIdx

/-- THE REFERENCE'S RESULT is the block-wise transform of its two arguments. -/
theorem result_eq (x : S4x4096x4096.Idx → EReal) (H : S256x256.Idx → EReal) :
    val_main_v3 (F := Ideal) x H = Cert.Spec.transformed x H := by
  funext i
  obtain ⟨b, s, d, rfl⟩ : ∃ (b : Fin 4) (s : Fin 4096) (d : Fin 4096), i = ix3 b s d := ⟨i 0, i 1, i 2, eq_ix3 i⟩
  rw [val_main_v3_apply, val_main_v2_apply]
  unfold Cert.Spec.transformed Cert.Spec.transform
  refine Finset.sum_congr rfl fun q _ => ?_
  rw [val_main_v0_apply, val_main_v1_apply]
  have hb := b.isLt
  have hs := s.isLt
  have hd := d.isLt
  have hq := q.isLt
  refine congrArg₂ (· * ·) (congrArg x ?_) (congrArg H ?_)
  · funext a; apply Fin.ext
    match a with
    | ⟨0, _⟩ =>
      show (((b.val * 4096 + s.val) * 4096 + d.val) / 256 * 256 + q.val) / 16777216 = b.val
      omega
    | ⟨1, _⟩ =>
      show (((b.val * 4096 + s.val) * 4096 + d.val) / 256 * 256 + q.val) / 4096 % 4096 = s.val
      omega
    | ⟨2, _⟩ =>
      show (((b.val * 4096 + s.val) * 4096 + d.val) / 256 * 256 + q.val) % 4096 = 256 * (d.val / 256) + q.val
      omega
  · funext a; apply Fin.ext
    match a with
    | ⟨0, _⟩ =>
      show ((b.val * 4096 + s.val) * 4096 + d.val) % 256 = d.val % 256
      omega
    | ⟨1, _⟩ => rfl

end Cert.ReferenceIdeal.RefValue

end
-- ==== Proof.lean ====
/-
  The kernel and its reference compute the same function over the extended reals.

  Both programs take `x` of shape 4 x 4096 x 4096 and a 256 x 256 matrix `H`, split the last axis of `x` into sixteen
  chunks of 256 entries, and multiply every chunk by the transpose of `H`:

      result (b, s, d) = sum over q < 256 of  x (b, s, 256 (d / 256) + q) * H (d % 256, q).

  The reference does it with one matrix product over all 262144 chunks laid out as rows. The kernel flattens `x` to
  16384 rows, walks them in thirty-two blocks of 512 rows, and inside a block loops over the sixteen chunks, each
  trip storing the product of one 512 x 256 strip with the transposed matrix. Read exactly, the narrowing of the
  operands to the matrix unit's input format is the identity and the unit's zero accumulator adds nothing, so each
  entry of either result is literally the same sum, in the same order: no algebraic law is needed beyond re-indexing,
  and in particular nothing depends on the entries being finite.

  The steps: the pieces the loop stores and their values (Strips, StripProduct); the output block as one function
  of the input blocks (BlockValue); the output array from its blocks (ArrayValue); the re-layouts around the kernel
  (Layout) and the kernel's run with its result named (KernelRun); the reference entry by entry (RefValue). The
  three frames are the generated runs; the idealization rewrote nothing, so there is nothing to preserve.
-/
import proofs.«159481_j83476984365425_2_alg».proof.Defs
import proofs.«159481_j83476984365425_2_alg».proof.Proof.Gen.Kernel
import proofs.«159481_j83476984365425_2_alg».proof.Proof.Gen.Kernel.Frame
import proofs.«159481_j83476984365425_2_alg».proof.Proof.Gen.KernelIdeal
import proofs.«159481_j83476984365425_2_alg».proof.Proof.Gen.KernelIdeal.Frame
import proofs.«159481_j83476984365425_2_alg».proof.Proof.Gen.ReferenceIdeal
import proofs.«159481_j83476984365425_2_alg».proof.Proof.Gen.ReferenceIdeal.Run
import proofs.«159481_j83476984365425_2_alg».proof.Proof.Gen.ReferenceIdeal.Read
import proofs.«159481_j83476984365425_2_alg».proof.Proof.Gen.Pre_finite_inputs
import proofs.«159481_j83476984365425_2_alg».proof.Proof.KernelRun
import proofs.«159481_j83476984365425_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments alone. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the exact values: no rewrite was applied. -/
theorem preserves : Cert.preserves_Kernel_KernelIdeal := trivial

/-- From memories that agree on `x` and `H`, both programs end with the block-wise transform of `x` by `H`. -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
